-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x32 : Shape := ⟨2, ![32, 32]⟩
abbrev S32 : Shape := ⟨1, ![32]⟩
abbrev S_ : Shape := ⟨0, ![]⟩

class Facts : Prop where
  bcast_S_S32x32 : S_.BroadcastsInDim S32x32 (![] : Fin 0 → Fin S32x32.rank)
  reducesTo_S32x32_S_d0_1 : S32x32.ReducesTo [0, 1] S_
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S32x32 .f32) (main_arg1 : FVec F S32x32 .f32) (main_arg2 : FVec F S32 .f32) : IVec S_ 1 :=
  let main_v0 : FVec F S32x32 .f32 := Host.absf main_arg0
  let main_cst : FVec F S_ .f32 := constant S_ .f32 0x7F800000#32
  let main_v1 : FVec F S32x32 .f32 := broadcastInDim S32x32 ![] bcast_S_S32x32 main_cst
  let main_v2 : IVec S32x32 1 := cmpf .olt main_v0 main_v1
  let main_c : IVec S_ 1 := constantI S_ 1 1#1
  let main_v3 : IVec S_ 1 := (fun x v => Host.reduce IntOp.andi x v reducesTo_S32x32_S_d0_1 h_S_) main_v2 main_c
  let main_v4 : FVec F S32x32 .f32 := Host.absf main_arg1
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S32x32 : Shape := ⟨2, ![32, 32]⟩
abbrev S32 : Shape := ⟨1, ![32]⟩
abbrev S1x32 : Shape := ⟨2, ![1, 32]⟩

abbrev nBuf : Space → Nat
  | .hbm => 5
  | .vmem => 4
  | .smem => 0
  | _ => 0

abbrev bufTy : (tb : Table) → Fin (tcTables nBuf tb) → BufTy
  | .hbm, ⟨0, _⟩ => ⟨S32x32, .f32⟩
  | .hbm, ⟨1, _⟩ => ⟨S32x32, .f32⟩
  | .hbm, ⟨2, _⟩ => ⟨S32, .f32⟩
  | .hbm, ⟨3, _⟩ => ⟨S1x32, .f32⟩
  | .hbm, ⟨4, _⟩ => ⟨S32x32, .f32⟩
  | .local _ .vmem, ⟨0, _⟩ => ⟨S32x32, .f32⟩
  | .local _ .vmem, ⟨1, _⟩ => ⟨S32x32, .f32⟩
  | .local _ .vmem, ⟨2, _⟩ => ⟨S1x32, .f32⟩
  | .local _ .vmem, ⟨3, _⟩ => ⟨S32x32, .f32⟩
  | _, _ => ⟨S32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S32_S1x32 : S32.ShapeCasts S1x32
  inb_S32x32_S32x32_0_0 : ∀ a, (![0, 0] : Fin 2 → Nat) a + S32x32.size a ≤ S32x32.size a
  h_S32x32 : 0 < S32x32.numel
  bitsLt_bf16_f32 : FTy.bits .bf16 < FTy.bits .f32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S32x32 : S1x32.Broadcasts S32x32
  dot_S32x32_S32x32_S32x32_1_1_0_0_n_n_wf : DotDims.WF S32x32 S32x32 S32x32 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x32.size a ≤ S32x32.size a
  hwx0_0 : ∀ i : grid0.Coords, EltTy.bits .f32 = 32 ∨ (Rect.block (s := S32x32) S32x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)

variable [Facts₀]

def dot_S32x32_S32x32_S32x32_1_1_0_0_n_n : DotDims S32x32 S32x32 S32x32 where
  lhsContracting := [1]
  rhsContracting := [1]
  lhsNonContracting := [0]
  rhsNonContracting := [0]
  lhsBatch := []
  rhsBatch := []
  wf := dot_S32x32_S32x32_S32x32_1_1_0_0_n_n_wf

abbrev win0_0 : Pipeline.Window sig grid0 :=
  Pipeline.Window.ofSpec (Memref.whole main_arg0) S32x32.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x32.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x32 : Shape := ⟨2, ![32, 32]⟩
abbrev S32 : Shape := ⟨1, ![32]⟩
abbrev S_ : Shape := ⟨0, ![]⟩
abbrev S1x32 : Shape := ⟨2, ![1, 32]⟩

abbrev nBuf : Space → Nat
  | .hbm => 168
  | .vmem => 0
  | .smem => 0
  | _ => 0

abbrev hbmTy0_0 (i : Nat) : BufTy := match i % 128 with
  | 0 => ⟨S32x32, .f32⟩
  | 1 => ⟨S32x32, .f32⟩
  | 2 => ⟨S32, .f32⟩
  | 3 => ⟨S_, .f32⟩
  | 4 => ⟨S32x32, .f32⟩
  | 5 => ⟨S32x32, .f32⟩
  | 6 => ⟨S32x32, .f32⟩
  | 7 => ⟨S32x32, .f32⟩
  | 8 => ⟨S_, .f32⟩
  | 9 => ⟨S32x32, .f32⟩
  | 10 => ⟨S32x32, .f32⟩
  | 11 => ⟨S32x32, .f32⟩
  | 12 => ⟨S32x32, .f32⟩
  | 13 => ⟨S_, .f32⟩
  | 14 => ⟨S32x32, .f32⟩
  | 15 => ⟨S32x32, .f32⟩
  | 16 => ⟨S32x32, .f32⟩
  | 17 => ⟨S32x32, .f32⟩
  | 18 => ⟨S_, .f32⟩
  | 19 => ⟨S32x32, .f32⟩
  | 20 => ⟨S32x32, .f32⟩
  | 21 => ⟨S32x32, .f32⟩
  | 22 => ⟨S32x32, .f32⟩
  | 23 => ⟨S_, .f32⟩
  | 24 => ⟨S32x32, .f32⟩
  | 25 => ⟨S32x32, .f32⟩
  | 26 => ⟨S32x32, .f32⟩
  | 27 => ⟨S32x32, .f32⟩
  | 28 => ⟨S_, .f32⟩
  | 29 => ⟨S32x32, .f32⟩
  | 30 => ⟨S32x32, .f32⟩
  | 31 => ⟨S32x32, .f32⟩
  | 32 => ⟨S32x32, .f32⟩
  | 33 => ⟨S_, .f32⟩
  | 34 => ⟨S32x32, .f32⟩
  | 35 => ⟨S32x32, .f32⟩
  | 36 => ⟨S32x32, .f32⟩
  | 37 => ⟨S32x32, .f32⟩
  | 38 => ⟨S_, .f32⟩
  | 39 => ⟨S32x32, .f32⟩
  | 40 => ⟨S32x32, .f32⟩
  | 41 => ⟨S32x32, .f32⟩
  | 42 => ⟨S32x32, .f32⟩
  | 43 => ⟨S_, .f32⟩
  | 44 => ⟨S32x32, .f32⟩
  | 45 => ⟨S32x32, .f32⟩
  | 46 => ⟨S32x32, .f32⟩
  | 47 => ⟨S32x32, .f32⟩
  | 48 => ⟨S_, .f32⟩
  | 49 => ⟨S32x32, .f32⟩
  | 50 => ⟨S32x32, .f32⟩
  | 51 => ⟨S32x32, .f32⟩
  | 52 => ⟨S32x32, .f32⟩
  | 53 => ⟨S_, .f32⟩
  | 54 => ⟨S32x32, .f32⟩
  | 55 => ⟨S32x32, .f32⟩
  | 56 => ⟨S32x32, .f32⟩
  | 57 => ⟨S32x32, .f32⟩
  | 58 => ⟨S_, .f32⟩
  | 59 => ⟨S32x32, .f32⟩
  | 60 => ⟨S32x32, .f32⟩
  | 61 => ⟨S32x32, .f32⟩
  | 62 => ⟨S32x32, .f32⟩
  | 63 => ⟨S_, .f32⟩
  | 64 => ⟨S32x32, .f32⟩
  | 65 => ⟨S32x32, .f32⟩
  | 66 => ⟨S32x32, .f32⟩
  | 67 => ⟨S32x32, .f32⟩
  | 68 => ⟨S_, .f32⟩
  | 69 => ⟨S32x32, .f32⟩
  | 70 => ⟨S32x32, .f32⟩
  | 71 => ⟨S32x32, .f32⟩
  | 72 => ⟨S32x32, .f32⟩
  | 73 => ⟨S_, .f32⟩
  | 74 => ⟨S32x32, .f32⟩
  | 75 => ⟨S32x32, .f32⟩
  | 76 => ⟨S32x32, .f32⟩
  | 77 => ⟨S32x32, .f32⟩
  | 78 => ⟨S_, .f32⟩
  | 79 => ⟨S32x32, .f32⟩
  | 80 => ⟨S32x32, .f32⟩
  | 81 => ⟨S32x32, .f32⟩
  | 82 => ⟨S32x32, .f32⟩
  | 83 => ⟨S_, .f32⟩
  | 84 => ⟨S32x32, .f32⟩
  | 85 => ⟨S32x32, .f32⟩
  | 86 => ⟨S32x32, .f32⟩
  | 87 => ⟨S32x32, .f32⟩
  | 88 => ⟨S_, .f32⟩
  | 89 => ⟨S32x32, .f32⟩
  | 90 => ⟨S32x32, .f32⟩
  | 91 => ⟨S32x32, .f32⟩
  | 92 => ⟨S32x32, .f32⟩
  | 93 => ⟨S_, .f32⟩
  | 94 => ⟨S32x32, .f32⟩
  | 95 => ⟨S32x32, .f32⟩
  | 96 => ⟨S32x32, .f32⟩
  | 97 => ⟨S32x32, .f32⟩
  | 98 => ⟨S_, .f32⟩
  | 99 => ⟨S32x32, .f32⟩
  | 100 => ⟨S32x32, .f32⟩
  | 101 => ⟨S32x32, .f32⟩
  | 102 => ⟨S32x32, .f32⟩
  | 103 => ⟨S_, .f32⟩
  | 104 => ⟨S32x32, .f32⟩
  | 105 => ⟨S32x32, .f32⟩
  | 106 => ⟨S32x32, .f32⟩
  | 107 => ⟨S32x32, .f32⟩
  | 108 => ⟨S_, .f32⟩
  | 109 => ⟨S32x32, .f32⟩
  | 110 => ⟨S32x32, .f32⟩
  | 111 => ⟨S32x32, .f32⟩
  | 112 => ⟨S32x32, .f32⟩
  | 113 => ⟨S_, .f32⟩
  | 114 => ⟨S32x32, .f32⟩
  | 115 => ⟨S32x32, .f32⟩
  | 116 => ⟨S32x32, .f32⟩
  | 117 => ⟨S32x32, .f32⟩
  | 118 => ⟨S_, .f32⟩
  | 119 => ⟨S32x32, .f32⟩
  | 120 => ⟨S32x32, .f32⟩
  | 121 => ⟨S32x32, .f32⟩
  | 122 => ⟨S32x32, .f32⟩
  | 123 => ⟨S_, .f32⟩
  | 124 => ⟨S32x32, .f32⟩
  | 125 => ⟨S32x32, .f32⟩
  | 126 => ⟨S32x32, .f32⟩
  | 127 => ⟨S32x32, .f32⟩
  | _ => ⟨S32x32, .f32⟩

abbrev hbmTy0_1 (i : Nat) : BufTy := match i % 128 with
  | 0 => ⟨S_, .f32⟩
  | 1 => ⟨S32x32, .f32⟩
  | 2 => ⟨S32x32, .f32⟩
  | 3 => ⟨S32x32, .f32⟩
  | 4 => ⟨S32x32, .f32⟩
  | 5 => ⟨S_, .f32⟩
  | 6 => ⟨S32x32, .f32⟩
  | 7 => ⟨S32x32, .f32⟩
  | 8 => ⟨S32x32, .f32⟩
  | 9 => ⟨S32x32, .f32⟩
  | 10 => ⟨S_, .f32⟩
  | 11 => ⟨S32x32, .f32⟩
  | 12 => ⟨S32x32, .f32⟩
  | 13 => ⟨S32x32, .f32⟩
  | 14 => ⟨S32x32, .f32⟩
  | 15 => ⟨S_, .f32⟩
  | 16 => ⟨S32x32, .f32⟩
  | 17 => ⟨S32x32, .f32⟩
  | 18 => ⟨S32x32, .f32⟩
  | 19 => ⟨S32x32, .f32⟩
  | 20 => ⟨S_, .f32⟩
  | 21 => ⟨S32x32, .f32⟩
  | 22 => ⟨S32x32, .f32⟩
  | 23 => ⟨S32x32, .f32⟩
  | 24 => ⟨S32x32, .f32⟩
  | 25 => ⟨S_, .f32⟩
  | 26 => ⟨S32x32, .f32⟩
  | 27 => ⟨S32x32, .f32⟩
  | 28 => ⟨S32x32, .f32⟩
  | 29 => ⟨S32x32, .f32⟩
  | 30 => ⟨S_, .f32⟩
  | 31 => ⟨S32x32, .f32⟩
  | 32 => ⟨S32x32, .f32⟩
  | 33 => ⟨S32x32, .f32⟩
  | 34 => ⟨S1x32, .f32⟩
  | 35 => ⟨S_, .f32⟩
  | 36 => ⟨S1x32, .f32⟩
  | 37 => ⟨S1x32, .f32⟩
  | 38 => ⟨S32x32, .f32⟩
  | 39 => ⟨S32x32, .f32⟩
  | _ => ⟨S32x32, .f32⟩

abbrev hbmTy (i : Nat) : BufTy := match i / 128 with
  | 0 => hbmTy0_0 i
  | 1 => hbmTy0_1 i
  | _ => ⟨S32x32, .f32⟩

abbrev bufTy : (tb : Table) → Fin (tcTables nBuf tb) → BufTy
  | .hbm, ⟨i, _⟩ => hbmTy i
  | _, _ => ⟨S32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_10 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_11 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_12 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_13 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_14 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_15 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_16 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_17 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_18 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_19 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_20 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_21 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_22 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_23 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_24 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_25 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_26 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_27 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_cst_28 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_cst_29 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_cst_30 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_cst_31 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩

abbrev nD : Nat := 1
abbrev τ : Topo := Topo.v7x

variable {F : FTy → Type} [FloatOps F]

class Facts₀ : Prop where
  bcast_S_S32x32 : S_.BroadcastsInDim S32x32 (![] : Fin 0 → Fin S32x32.rank)
  bcast_S32_S1x32_1 : S32.BroadcastsInDim S1x32 (![1] : Fin 1 → Fin S1x32.rank)
  bcast_S_S1x32 : S_.BroadcastsInDim S1x32 (![] : Fin 0 → Fin S1x32.rank)
  bcast_S1x32_S32x32_0_1 : S1x32.BroadcastsInDim S32x32 (![0, 1] : Fin 2 → Fin S32x32.rank)
  dot_S32x32_S32x32_S32x32_1_1_0_0_n_n_wf : DotDims.WF S32x32 S32x32 S32x32 [1] [1] [0] [0] [] []

variable [Facts₀]

def dot_S32x32_S32x32_S32x32_1_1_0_0_n_n : DotDims S32x32 S32x32 S32x32 where
  lhsContracting := [1]
  rhsContracting := [1]
  lhsNonContracting := [0]
  rhsNonContracting := [0]
  lhsBatch := []
  rhsBatch := []
  wf := dot_S32x32_S32x32_S32x32_1_1_0_0_n_n_wf

class Facts : Prop extends Facts₀ where

variable [Facts]
-- ==== Proof.LibDigitChain.lean ====
/-
  Repeated digit extraction on extended reals, and two rearrangements a kernel makes of a
  "contract, then add a row of biases" tail.

  * `step c v` is the map `v ↦ (v − ⌊v⌋) · c` applied to every entry of a vector, and `steps c n` its
    `n`-fold iterate.  The iterate splits additively (`steps_add`), which is how a chain cut into
    consecutive stretches is put back together.  The host program's spelling of one step — its own
    `floor`, and the constant broadcast from a rank-0 tensor — is the same function (`host_step_eq`),
    so one more such line after `n` steps makes `n + 1` (`host_steps_succ`).
  * A matrix product accumulated into the zero splat is the host's `dot_general` of the same
    operands: both are the sum over the contracted index of the products, and `0 + a = a` on the
    extended reals (`matmul_zero_eq_dotGeneral`).  A change of float format on the way into the
    product is the identity at the exact instance.
  * A bias row `b : [n]` laid out as `[1, n]` by a reshape, scaled, and broadcast over `m` rows
    reads at `(p, q)` as the scaled `b q` (`scaled_row_broadcast`, `scaled_reshaped_row_broadcast`); so does
    the host's chain of two `broadcast_in_dim`s (`host_bias_rows`).  `biasRows` names that array.
  * `encode` is the whole map: scale, `k` steps, contract with `W`, add the bias rows.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.Lib.DigitChain

open Idealize.ShloMosaic Idealize.ShloMosaic.ValueIdx

variable {s : Shape}

/-- One digit-extraction step on every entry: the fractional part `v − ⌊v⌋`, times the constant `c`. -/
def step (c : Ideal .f32) (v : FVec Ideal s .f32) : FVec Ideal s .f32 :=
  mulf (subf v (floor v)) (broadcast s c)

/-- `n` steps, the last one outermost. -/
def steps (c : Ideal .f32) : Nat → FVec Ideal s .f32 → FVec Ideal s .f32
  | 0, v => v
  | n + 1, v => step c (steps c n v)

theorem steps_zero (c : Ideal .f32) (v : FVec Ideal s .f32) : steps c 0 v = v := rfl

theorem steps_succ (c : Ideal .f32) (n : Nat) (v : FVec Ideal s .f32) :
    steps c (n + 1) v = step c (steps c n v) := rfl

/-- Running `b` steps and then `a` more is running `a + b` steps. -/
theorem steps_add (c : Ideal .f32) (a b : Nat) (v : FVec Ideal s .f32) :
    steps c a (steps c b v) = steps c (a + b) v := by
  induction a with
  | zero => rw [Nat.zero_add]; rfl
  | succ a ih => rw [steps_succ, ih, Nat.succ_add]; rfl

/-- The host's spelling of one step — `stablehlo.floor`, and the factor broadcast from a rank-0 constant —
    is the same function of `v`: at the exact instance both floors are `⌊·⌋` with the infinities fixed, and
    both broadcasts are the constant vector. -/
theorem host_step_eq (w : BitVec 32) (h : (⟨0, ![]⟩ : Shape).BroadcastsInDim s (![] : Fin 0 → Fin s.rank))
    (v : FVec Ideal s .f32) :
    mulf (subf v (Host.floor v)) (broadcastInDim s ![] h (constant (F := Ideal) ⟨0, ![]⟩ .f32 w))
      = step (Ideal.ofBits .f32 w) v := rfl

/-- One more step in the host's spelling, applied to a vector already known to be `n` steps of `v₀`, is `n + 1`
    steps of `v₀`: how an unrolled host chain is read one repetition at a time. -/
theorem host_steps_succ (w : BitVec 32) (h : (⟨0, ![]⟩ : Shape).BroadcastsInDim s (![] : Fin 0 → Fin s.rank))
    (n : Nat) (v₀ v : FVec Ideal s .f32) (hv : v = steps (Ideal.ofBits .f32 w) n v₀) :
    mulf (subf v (Host.floor v)) (broadcastInDim s ![] h (constant (F := Ideal) ⟨0, ![]⟩ .f32 w))
      = steps (Ideal.ofBits .f32 w) (n + 1) v₀ := by
  rw [host_step_eq, hv]; rfl

/-! ## The contraction -/

/-- A matrix product accumulated into the zero splat, its operands narrowed to bf16 on the way in, is the host's
    `dot_general` of the operands themselves: at the exact instance narrowing is the identity, both products are the sum
    over the contracted index of the products of the entries, and `0 + a = a`. -/
theorem matmul_truncf_zero_eq_dotGeneral {sl sr so : Shape} (d : DotDims sl sr so) (p p' : Option ContractPrecision)
    (sched : HostSchedule) (lhs : FVec Ideal sl .f32) (rhs : FVec Ideal sr .f32) (hb : FTy.bits .bf16 < FTy.bits .f32) :
    matmul d p (truncf .bf16 lhs hb) (truncf .bf16 rhs hb) (constant so .f32 0x00000000#32)
      = FloatOps.dotGeneral d p' sched lhs rhs := by
  funext j
  exact (Ideal.matmul_constant_zero_apply d p (truncf .bf16 lhs hb) (truncf .bf16 rhs hb) j).trans
    (Ideal.dotGeneral_apply d p' sched lhs rhs j).symm

/-! ## The bias rows -/

/-- The row `b` scaled by `c` and repeated over `m` rows: entry `(p, q)` is `c · b q`. -/
def biasRows (m : Nat) {n : Nat} (c : Ideal .f32) (b : FVec Ideal ⟨1, ![n]⟩ .f32) : FVec Ideal ⟨2, ![m, n]⟩ .f32 :=
  fun j => c * b (ix1 (j 1))

/-- A kernel's arrangement: the `[1, n]` row (cast to its own shape), scaled by the splat of `c`, broadcast over
    `m` rows, reads at `(p, q)` as `c` times the row's entry `q`. -/
theorem scaled_row_broadcast {m n : Nat} (c : Ideal .f32) (r : FVec Ideal ⟨2, ![1, n]⟩ .f32)
    (hs : (⟨2, ![1, n]⟩ : Shape).ShapeCasts ⟨2, ![1, n]⟩) (hb : (⟨2, ![1, n]⟩ : Shape).Broadcasts ⟨2, ![m, n]⟩) :
    broadcastTo ⟨2, ![m, n]⟩ (mulf (broadcast ⟨2, ![1, n]⟩ c) (shapeCast ⟨2, ![1, n]⟩ r hs)) hb
      = fun j => c * r (ix2 (0 : Fin 1) (j 1)) := by
  funext j
  obtain ⟨p, q, rfl⟩ : ∃ (p : Fin m) (q : Fin n), j = ix2 p q := ⟨j 0, j 1, eq_ix2 j⟩
  rw [broadcastTo_1b_ab_apply, shapeCast_self]
  rfl

/-- With the row the `[1, n]` reshape of `b : [n]`, that is `biasRows`. -/
theorem scaled_reshaped_row_broadcast {m n : Nat} (c : Ideal .f32) (b : FVec Ideal ⟨1, ![n]⟩ .f32)
    (hr : (⟨1, ![n]⟩ : Shape).ShapeCasts ⟨2, ![1, n]⟩) :
    (fun j : (⟨2, ![m, n]⟩ : Shape).Idx => c * shapeCast ⟨2, ![1, n]⟩ b hr (ix2 (0 : Fin 1) (j 1))) = biasRows m c b := by
  funext j
  obtain ⟨p, q, rfl⟩ : ∃ (p : Fin m) (q : Fin n), j = ix2 p q := ⟨j 0, j 1, eq_ix2 j⟩
  show c * shapeCast ⟨2, ![1, n]⟩ b hr (ix2 (0 : Fin 1) q) = c * b (ix1 q)
  rw [shapeCast_a_1a_apply]

/-- The host's arrangement: `b` broadcast to `[1, n]` along the last axis, scaled by the constant broadcast from a
    rank-0 tensor, then broadcast over `m` rows, is `biasRows` too. -/
theorem host_bias_rows {m n : Nat} (w : BitVec 32) (b : FVec Ideal ⟨1, ![n]⟩ .f32)
    (h0 : (⟨0, ![]⟩ : Shape).BroadcastsInDim ⟨2, ![1, n]⟩ (![] : Fin 0 → Fin 2))
    (h1 : (⟨1, ![n]⟩ : Shape).BroadcastsInDim ⟨2, ![1, n]⟩ (![1] : Fin 1 → Fin 2))
    (h2 : (⟨2, ![1, n]⟩ : Shape).BroadcastsInDim ⟨2, ![m, n]⟩ (![0, 1] : Fin 2 → Fin 2)) :
    broadcastInDim ⟨2, ![m, n]⟩ ![0, 1] h2
        (mulf (broadcastInDim ⟨2, ![1, n]⟩ ![] h0 (constant (F := Ideal) ⟨0, ![]⟩ .f32 w))
          (broadcastInDim ⟨2, ![1, n]⟩ ![1] h1 b))
      = biasRows m (Ideal.ofBits .f32 w) b := by
  funext j
  obtain ⟨p, q, rfl⟩ : ∃ (p : Fin m) (q : Fin n), j = ix2 p q := ⟨j 0, j 1, eq_ix2 j⟩
  rw [broadcastInDim_apply ![0, 1] h2 _ (ix2 p q) (ix2 (0 : Fin 1) q) (fun a => by
    match a with
    | ⟨0, _⟩ => rfl
    | ⟨1, _⟩ =>
      show q.val = if n = 1 then 0 else q.val
      split
      · have := q.isLt; omega
      · rfl)]
  show Ideal.ofBits .f32 w * broadcastInDim ⟨2, ![1, n]⟩ ![1] h1 b (ix2 (0 : Fin 1) q) = Ideal.ofBits .f32 w * b (ix1 q)
  rw [broadcastInDim_apply ![1] h1 b (ix2 (0 : Fin 1) q) (ix1 q) (fun a => by
    match a with
    | ⟨0, _⟩ =>
      show q.val = if n = 1 then 0 else q.val
      split
      · have := q.isLt; omega
      · rfl)]

/-! ## The whole map -/

/-- The encoder both programs compute: scale the input by `cIn`, run `k` digit-extraction steps with factor `cStep`,
    contract the result with `W` along `d`'s contracted axes, and add the bias row `b` scaled by `cBias` to every row. -/
def encode {sx sw : Shape} {m n : Nat} (d : DotDims sx sw ⟨2, ![m, n]⟩) (cIn cStep cBias : Ideal .f32) (k : Nat)
    (x : FVec Ideal sx .f32) (W : FVec Ideal sw .f32) (b : FVec Ideal ⟨1, ![n]⟩ .f32) : FVec Ideal ⟨2, ![m, n]⟩ .f32 :=
  addf (FloatOps.dotGeneral d none .single (steps cStep k (mulf x (broadcast sx cIn))) W) (biasRows m cBias b)

end Cert.Lib.DigitChain

end
-- ==== Proof.KernelValue.lean ====
/-
  What the kernel leaves in its result array, as one function of the argument arrays.

  The body loads the whole `x`, `W` and the `[1, 32]` bias row, scales `x` by the f32 nearest one tenth, runs
  thirty-one digit-extraction steps `v ↦ (v − ⌊v⌋) · 10` (printed in three consecutive stretches of eleven,
  twelve and eight steps, the stretches' seams falling between a fractional part and its scaling), contracts the result with
  `W` along both last axes into a zero accumulator, and adds thirty-two times the bias row to every row.  With the
  stretches rejoined (`steps_add`), the accumulator dropped and the row broadcast read at an index, that is
  `encode` of the blocks.  The grid has one point and every block is its whole array, so the blocks are the arrays and the
  result array after the run is `encode` of the arguments, the bias row being the `[1, 32]` reshape of `b` that the
  host wrote before the call.
-/
import proofs.«149686_j82463372083643_2_alg».proof.Proof.Gen.KernelIdeal.Value
import proofs.«149686_j82463372083643_2_alg».proof.Proof.LibDigitChain
import Idealize.ShloMosaic.Lib.StableHlo.Run

noncomputable section

namespace Cert.KernelIdeal.Encoder

open Cert.KernelIdeal Cert.KernelIdeal.Gen Idealize.ShloMosaic Idealize.ShloMosaic.TcCoe Idealize.SL.Sem
open Idealize.ShloMosaic.ValueIdx Cert.Lib.DigitChain

/-- The three float literals of the body: the f32 nearest 0.1, ten, thirty-two. -/
abbrev cIn : Ideal .f32 := Ideal.ofBits .f32 0x3DCCCCCD#32
abbrev cStep : Ideal .f32 := Ideal.ofBits .f32 0x41200000#32
abbrev cBias : Ideal .f32 := Ideal.ofBits .f32 0x42000000#32

/-! ## The body's arithmetic -/

/-- The first stretch: the scaling by `cIn`, ten whole steps, and the fractional part that opens the eleventh. -/
theorem stretch1 (x : Vec Ideal S32x32 .f32) :
    k0_pay1 (F := Ideal) x
      = subf (steps cStep 10 (mulf x (broadcast S32x32 cIn))) (floor (steps cStep 10 (mulf x (broadcast S32x32 cIn)))) := rfl

/-- The second stretch: the scaling that closes the open step, eleven whole steps, and again an opening fractional part. -/
theorem stretch2 (v : FVec Ideal S32x32 .f32) (c : Ideal .f32) :
    k0_pay2 (F := Ideal) v c
      = subf (steps cStep 11 (mulf v (broadcast S32x32 c))) (floor (steps cStep 11 (mulf v (broadcast S32x32 c)))) := rfl

/-- The third stretch: the closing scaling, eight whole steps, then the contraction into the zero accumulator and
    the scaled bias row added to every row. -/
theorem stretch3 (v : FVec Ideal S32x32 .f32) (c : Ideal .f32) (w : Vec Ideal S32x32 .f32) (r : Vec Ideal S1x32 .f32) :
    k0_pay3 (F := Ideal) v c w r
      = addf (matmul dot_S32x32_S32x32_S32x32_1_1_0_0_n_n none
            (truncf .bf16 (steps cStep 8 (mulf v (broadcast S32x32 c))) Facts₀.bitsLt_bf16_f32)
            (truncf .bf16 w Facts₀.bitsLt_bf16_f32) (constant S32x32 .f32 0x00000000#32))
          (broadcastTo S32x32 (mulf (broadcast S1x32 cBias) (shapeCast S1x32 r Facts₀.shapeCasts_S1x32_S1x32))
            Facts₀.broadcasts_S1x32_S32x32) := rfl

/-- The body's result as a function of the three loaded blocks. -/
def blockValue (x w : FVec Ideal S32x32 .f32) (r : FVec Ideal S1x32 .f32) : FVec Ideal S32x32 .f32 :=
  addf (FloatOps.dotGeneral dot_S32x32_S32x32_S32x32_1_1_0_0_n_n none .single
      (steps cStep 31 (mulf x (broadcast S32x32 cIn))) w)
    (fun j => cBias * r (ix2 (0 : Fin 1) (j 1)))

/-- The three stretches in sequence are thirty-one steps; the product into the zero accumulator is the plain
    contraction; the broadcast row reads at `(p, q)` as its entry `q`. -/
theorem body_eq (x w : Vec Ideal S32x32 .f32) (r : Vec Ideal S1x32 .f32) :
    k0_pay3 (F := Ideal) (k0_pay2 (k0_pay1 x) cStep) cStep w r = blockValue x w r := by
  rw [stretch3, stretch2, stretch1]
  have h1 : mulf (subf (steps cStep 10 (mulf x (broadcast S32x32 cIn))) (floor (steps cStep 10 (mulf x (broadcast S32x32 cIn)))))
      (broadcast S32x32 cStep) = steps cStep 11 (mulf x (broadcast S32x32 cIn)) := rfl
  rw [h1]
  have h2 : mulf (subf (steps cStep 11 (steps cStep 11 (mulf x (broadcast S32x32 cIn))))
        (floor (steps cStep 11 (steps cStep 11 (mulf x (broadcast S32x32 cIn))))))
      (broadcast S32x32 cStep) = steps cStep 12 (steps cStep 11 (mulf x (broadcast S32x32 cIn))) := rfl
  rw [h2, steps_add, steps_add, matmul_truncf_zero_eq_dotGeneral _ none none .single, scaled_row_broadcast]
  rfl

/-! ## From the staging buffer to the array -/

variable (m : (ℓ : Loc nD τ sig) → Buf (Elt Ideal) ℓ) (ρ : Dev nD → PrngReg)

theorem offsets_zero : (![0, 0] : Fin 2 → Nat) = fun _ => 0 := funext fun a => by fin_cases a <;> rfl

/-- The one store covers the staging buffer and the loads read whole buffers, so what the body leaves there is its
    arithmetic of the three loaded blocks. -/
theorem out_eq (x0 x1 : Vec Ideal S32x32 .f32) (x2 : Vec Ideal S1x32 .f32) :
    out0_3 (F := Ideal) x0 x1 x2 = blockValue x0 x1 x2 := by
  unfold out0_3
  rw [View.canon_unit_zero offsets_zero]
  simp only [View.ld_unit_zero (S := S32x32) offsets_zero, View.ld_unit_zero (S := S1x32) offsets_zero]
  exact body_eq x0 x1 x2

/-- Every window's block index is zero on both axes at the grid's one point. -/
theorem index_zero : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- So an element of a block sits in its array at the block's own coordinates: block index 0 times the block size,
    plus the coordinate inside the block. -/
theorem emb0 (t : Fin cfg0.N) (y : ((cfg0.win 0).xblock (cfg0.grid.coords t)).Idx) :
    ((cfg0.win 0).blk t).view.emb y = y := by
  obtain ⟨e0, e1, -⟩ := index_zero t
  funext a; apply Fin.ext
  match a with
  | ⟨0, _⟩ => show win0_0.index t (0 : Fin 2) * 32 + 1 * (y 0).val = (y 0).val; omega
  | ⟨1, _⟩ => show win0_0.index t (1 : Fin 2) * 32 + 1 * (y 1).val = (y 1).val; omega

theorem emb1 (t : Fin cfg0.N) (y : ((cfg0.win 1).xblock (cfg0.grid.coords t)).Idx) :
    ((cfg0.win 1).blk t).view.emb y = y := by
  obtain ⟨-, -, e0, e1, -⟩ := index_zero t
  funext a; apply Fin.ext
  match a with
  | ⟨0, _⟩ => show win0_1.index t (0 : Fin 2) * 32 + 1 * (y 0).val = (y 0).val; omega
  | ⟨1, _⟩ => show win0_1.index t (1 : Fin 2) * 32 + 1 * (y 1).val = (y 1).val; omega

theorem emb2 (t : Fin cfg0.N) (y : ((cfg0.win 2).xblock (cfg0.grid.coords t)).Idx) :
    ((cfg0.win 2).blk t).view.emb y = y := by
  obtain ⟨-, -, -, -, e0, e1, -⟩ := index_zero t
  funext a; apply Fin.ext
  match a with
  | ⟨0, _⟩ => show win0_2.index t (0 : Fin 2) * 1 + 1 * (y 0).val = (y 0).val; omega
  | ⟨1, _⟩ => show win0_2.index t (1 : Fin 2) * 32 + 1 * (y 1).val = (y 1).val; omega

theorem emb3 (t : Fin cfg0.N) (y : ((cfg0.win 3).xblock (cfg0.grid.coords t)).Idx) :
    ((cfg0.win 3).blk t).view.emb y = y := by
  obtain ⟨-, -, -, -, -, -, e0, e1⟩ := index_zero t
  funext a; apply Fin.ext
  match a with
  | ⟨0, _⟩ => show win0_3.index t (0 : Fin 2) * 32 + 1 * (y 0).val = (y 0).val; omega
  | ⟨1, _⟩ => show win0_3.index t (1 : Fin 2) * 32 + 1 * (y 1).val = (y 1).val; omega

/-- Hence each input block IS its array as the region finds it. -/
theorem iblk0 (c : Dev nD) (t : Fin cfg0.N) : iblk m c 0 t = V m c main_arg0 := by
  funext y
  show V m c main_arg0 (((cfg0.win 0).blk t).view.emb y) = V m c main_arg0 y
  rw [emb0]

theorem iblk1 (c : Dev nD) (t : Fin cfg0.N) : iblk m c 1 t = V m c main_arg1 := by
  funext y
  show V m c main_arg1 (((cfg0.win 1).blk t).view.emb y) = V m c main_arg1 y
  rw [emb1]

theorem iblk2 (c : Dev nD) (t : Fin cfg0.N) : iblk m c 2 t = V m c main_v0 := by
  funext y
  show V m c main_v0 (((cfg0.win 2).blk t).view.emb y) = V m c main_v0 y
  rw [emb2]

/-- The bias row the region finds: the host's reshape of `b` to `[1, 32]`, the one operation before the call. -/
theorem V_main_v0 (c : Dev nD) :
    (V m c main_v0 : S1x32.Idx → EReal) = shapeCast S1x32 (m ((c : Thread nD τ).loc main_arg2)) Facts₀.shapeCasts_S32_S1x32 := by
  dsimp only [Gen.V, Gen.hostOps0]; after_results; rfl

/-- The result array after the run: the one point's block is the whole array, read back it is what that point wrote,
    and that is the body's arithmetic of the input arrays. -/
theorem final (c : Dev nD) :
    (dats m 0 c).arrAt 3 cfg0.N = blockValue (V m c main_arg0) (V m c main_arg1) (V m c main_v0) := by
  funext i
  have h : (dats m 0 c).arrAt 3 cfg0.N (((cfg0.win 3).blk t0_0).view.emb i) = (dats m 0 c).flushed 3 t0_0 i :=
    congrFun (Value.blocks3 m c t0_0 (flush0_3 t0_0)) i
  rw [emb3] at h
  rw [h, Value.flushed3]
  show out0_3 (iblk m c 0 t0_0) (iblk m c 1 t0_0) (iblk m c 2 t0_0) i = _
  rw [out_eq, iblk0, iblk1, iblk2]

/-- In terms of the arguments as launched: no host operation writes `x` or `W`, and the row is the reshape of `b`,
    whose entry `(0, q)` is `b q`. -/
theorem value_eq (c : Dev nD) :
    blockValue (V m c main_arg0) (V m c main_arg1) (V m c main_v0)
      = encode dot_S32x32_S32x32_S32x32_1_1_0_0_n_n cIn cStep cBias 31 (m ((c : Thread nD τ).loc main_arg0))
          (m ((c : Thread nD τ).loc main_arg1)) (m ((c : Thread nD τ).loc main_arg2)) := by
  rw [V_main_arg0, V_main_arg1, V_main_v0]
  unfold blockValue encode
  rw [scaled_reshaped_row_broadcast]

/-- The kernel's run, its result array named: `encode` of the arguments, which end as launched. -/
theorem run : θ_run defs (onTc (τ := τ) (main (F := Ideal))) ⟨m, fun _ => 0, ρ⟩ fun r => ∀ c : Dev nD,
      r.2.mem ((c : Thread nD τ).loc main_v1)
        = encode dot_S32x32_S32x32_S32x32_1_1_0_0_n_n cIn cStep cBias 31 (m ((c : Thread nD τ).loc main_arg0))
            (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (value_eq m c)), (h c).2⟩)
    (Value.run_blocks m ρ)

end Cert.KernelIdeal.Encoder

end
-- ==== Proof.RefValue.lean ====
/-
  What the reference computes, as the same function of the argument arrays.

  The host program scales `x` by the f32 nearest one tenth and then repeats, thirty-one times, the three lines
  `floor`, `subtract`, `multiply by ten`: each repetition is one digit-extraction step in the host's spelling, so the
  chain is `steps` of the scaled input (thirty of the repetitions are the run's named intermediates, the last is in its
  result term).  It then contracts the chain's result with `W` along both last axes and adds the bias row, scaled by
  thirty-two and broadcast over the rows in two `broadcast_in_dim`s.  That is `encode` of the arguments.
-/
import proofs.«149686_j82463372083643_2_alg».proof.Proof.Gen.ReferenceIdeal.Run
import proofs.«149686_j82463372083643_2_alg».proof.Proof.LibDigitChain

noncomputable section

namespace Cert.ReferenceIdeal.Encoder

open Cert.ReferenceIdeal Cert.ReferenceIdeal.Gen Cert.ReferenceIdeal.Value Idealize.ShloMosaic Idealize.ShloMosaic.TcCoe
open Idealize.SL.Sem Idealize.ShloMosaic.StableHlo Cert.Lib.DigitChain

/-- The three float literals of the program: the f32 nearest 0.1, ten, thirty-two. -/
abbrev cIn : Ideal .f32 := Ideal.ofBits .f32 0x3DCCCCCD#32
abbrev cStep : Ideal .f32 := Ideal.ofBits .f32 0x41200000#32
abbrev cBias : Ideal .f32 := Ideal.ofBits .f32 0x42000000#32

/-- The thirtieth named intermediate is thirty steps of the scaled input: each named intermediate is one step of the
    one before it, and the first is the scaled input itself. -/
theorem chain30 (L : Valuation τ sig (Elt Ideal)) :
    res_main_v121 L = steps cStep 30 (mulf (L (Proc.devRef .tc main_arg0)) (broadcast S32x32 cIn)) := rfl

/-- The run's result term is `encode` of the arguments: one more step closes the chain at thirty-one, and the two
    broadcasts of the scaled bias row read at `(p, q)` as thirty-two times `b q`. -/
theorem result_eq (L : Valuation τ sig (Elt Ideal)) :
    addf (Host.dotGeneral (φ₁ := .f32) (φ₂ := .f32) dot_S32x32_S32x32_S32x32_1_1_0_0_n_n none
          (mulf (subf (res_main_v121 L) (Host.floor (res_main_v121 L)))
            (broadcastInDim S32x32 ![] Facts₀.bcast_S_S32x32 (constant S_ .f32 0x41200000#32)))
          (L (Proc.devRef .tc main_arg1) : FVec Ideal S32x32 .f32))
        (broadcastInDim S32x32 ![0, 1] Facts₀.bcast_S1x32_S32x32_0_1
          (mulf (broadcastInDim S1x32 ![] Facts₀.bcast_S_S1x32 (constant S_ .f32 0x42000000#32))
            (broadcastInDim S1x32 ![1] Facts₀.bcast_S32_S1x32_1 (L (Proc.devRef .tc main_arg2) : FVec Ideal S32 .f32))))
      = encode dot_S32x32_S32x32_S32x32_1_1_0_0_n_n cIn cStep cBias 31 (L (Proc.devRef .tc main_arg0) : FVec Ideal S32x32 .f32)
          (L (Proc.devRef .tc main_arg1) : FVec Ideal S32x32 .f32) (L (Proc.devRef .tc main_arg2) : FVec Ideal S32 .f32) := by
  rw [host_steps_succ 0x41200000#32 Facts₀.bcast_S_S32x32 30 _ _ (chain30 L), host_bias_rows]
  rfl

/-- The reference's run, its result named: `encode` of the arguments, which end as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v131)
        = encode dot_S32x32_S32x32_S32x32_1_1_0_0_n_n cIn cStep cBias 31 (m ((c.tc : Thread nD τ).loc main_arg0))
            (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (result_eq (launchContents m c)), (h c).2⟩)
    (Value.run (F := Ideal) m ρ)

end Cert.ReferenceIdeal.Encoder

end
-- ==== Proof.lean ====
/-
  The kernel and its reference compute one function, `encode`, on the extended reals.

  Both programs scale `x` by the f32 nearest one tenth, apply the digit-extraction step `v ↦ (v − ⌊v⌋) · 10` thirty-one
  times to every entry, contract the result with `W` over both last axes, and add thirty-two times the bias row `b` to
  every row.  They differ only in spelling: the kernel rounds both operands to bf16 before the product (the identity on
  exact values) and accumulates into a zero splat (`0 + a = a`), and it reads the bias through a `[1, 32]` reshape and
  one row broadcast where the reference uses two `broadcast_in_dim`s; the floors and the constant broadcasts are the
  same functions under two names.  No step uses a law that fails at an infinity, so the precondition is not opened.

  `KernelValue` reads the kernel's result array off its run as `encode` of the arguments, `RefValue` does the same
  for the reference's result term, and the two contraction records have the same contracted and free axes, so the two
  `encode`s are one term.  The kernel's idealization rewrote nothing, so `preserves` is `True`; the frames are the
  programs' runs with the results forgotten.
-/
import proofs.«149686_j82463372083643_2_alg».proof.Defs
import proofs.«149686_j82463372083643_2_alg».proof.Proof.Gen.Kernel
import proofs.«149686_j82463372083643_2_alg».proof.Proof.Gen.Kernel.Skeleton
import proofs.«149686_j82463372083643_2_alg».proof.Proof.Gen.Kernel.Launch
import proofs.«149686_j82463372083643_2_alg».proof.Proof.Gen.Kernel.Points
import proofs.«149686_j82463372083643_2_alg».proof.Proof.Gen.Kernel.Frame
import proofs.«149686_j82463372083643_2_alg».proof.Proof.Gen.KernelIdeal
import proofs.«149686_j82463372083643_2_alg».proof.Proof.Gen.KernelIdeal.Skeleton
import proofs.«149686_j82463372083643_2_alg».proof.Proof.Gen.KernelIdeal.Launch
import proofs.«149686_j82463372083643_2_alg».proof.Proof.Gen.KernelIdeal.Points
import proofs.«149686_j82463372083643_2_alg».proof.Proof.Gen.KernelIdeal.Frame
import proofs.«149686_j82463372083643_2_alg».proof.Proof.Gen.ReferenceIdeal
import proofs.«149686_j82463372083643_2_alg».proof.Proof.Gen.Pre_finite_inputs
import proofs.«149686_j82463372083643_2_alg».proof.Proof.Gen.KernelIdeal.Value
import proofs.«149686_j82463372083643_2_alg».proof.Proof.Gen.ReferenceIdeal.Run
import proofs.«149686_j82463372083643_2_alg».proof.Proof.KernelValue
import proofs.«149686_j82463372083643_2_alg».proof.Proof.RefValue
import Idealize.ShloMosaic.Adequacy
import Idealize.ShloMosaic.Init

noncomputable section

namespace Cert.Proof

open Idealize.ShloMosaic Idealize.SL.Sem Cert.Lib.DigitChain

/-- The word-level kernel terminates without a fault and leaves its arguments as launched. -/
theorem frame_kernel : Cert.frame_Kernel := fun m ρ _ => Cert.Kernel.Gen.frame m ρ

/-- So does the kernel read on exact values. -/
theorem frame_kernelIdeal : Cert.frame_KernelIdeal := fun m ρ _ => Cert.KernelIdeal.Gen.frame m ρ

/-- The reference is a host program: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- The two programs' contraction records agree: lhs axis 1 against rhs axis 1, the free axes 0 and 0, no batch axis. -/
theorem dot_eq : Cert.KernelIdeal.dot_S32x32_S32x32_S32x32_1_1_0_0_n_n = Cert.ReferenceIdeal.dot_S32x32_S32x32_S32x32_1_1_0_0_n_n := rfl

/-- From memories that agree on `x`, `W` and `b`, both results are `encode` of those arrays. -/
theorem algebraic : Cert.algebraic_KernelIdeal_ReferenceIdeal := by
  intro m ρ m' ρ' _ hagree
  refine ⟨_, Cert.KernelIdeal.Encoder.run m ρ, ?_⟩
  refine (θ_run Cert.ReferenceIdeal.defs _ _).mono (fun _ h c => ⟨(h c).1.trans ?_, (h c).2⟩)
    (Cert.ReferenceIdeal.Encoder.run m' ρ')
  rw [(hagree c).1, (hagree c).2.1, (hagree c).2.2, ← dot_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
